-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x256 : Shape := ⟨2, ![128, 256]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : FVec F S128x256 .f32) (main_arg2 : FVec F S128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S128x256 : Shape := ⟨2, ![128, 256]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x128 : Shape := ⟨2, ![128, 128]⟩
abbrev S1x128 : Shape := ⟨2, ![1, 128]⟩
abbrev S4000x128 : Shape := ⟨2, ![4000, 128]⟩
abbrev S4000x1 : Shape := ⟨2, ![4000, 1]⟩
abbrev S4000 : Shape := ⟨1, ![4000]⟩

abbrev nBuf : Space → Nat
  | .hbm => 33
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S100000x1, .f32⟩
  | .hbm, ⟨25, _⟩ => ⟨S128x128, .f32⟩
  | .hbm, ⟨26, _⟩ => ⟨S128x128, .f32⟩
  | .hbm, ⟨27, _⟩ => ⟨S128x128, .bf16⟩
  | .hbm, ⟨28, _⟩ => ⟨S128x128, .f32⟩
  | .hbm, ⟨29, _⟩ => ⟨S128x128, .f32⟩
  | .hbm, ⟨30, _⟩ => ⟨S128x128, .bf16⟩
  | .hbm, ⟨31, _⟩ => ⟨S1x128, .f32⟩
  | .hbm, ⟨32, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  slices_S128x256_S128x128_0_0 : S128x256.Slices ![0, 0] S128x128
  transposes_S128x128_S128x128_1_0 : S128x128.Transposes [1, 0] S128x128
  bitsLt_bf16_f32 : FTy.bits .bf16 < FTy.bits .f32
  slices_S128x256_S128x128_0_128 : S128x256.Slices ![0, 128] S128x128
  shapeCasts_S128_S1x128 : S128.ShapeCasts S1x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  reduces_S4000x128_S4000 : S4000x128.Reduces [1] S4000
  shapeCasts_S4000_S4000x1 : S4000.ShapeCasts S4000x1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x256 : Shape := ⟨2, ![128, 256]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x256 : Shape := ⟨2, ![100000, 256]⟩
abbrev S256x128 : Shape := ⟨2, ![256, 128]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S100000x256, .f32⟩
  | .hbm, ⟨31, _⟩ => ⟨S256x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000, .f32⟩
  | .hbm, ⟨39, _⟩ => ⟨S100000x1, .f32⟩
  | .hbm, ⟨40, _⟩ => ⟨S100000x1, .f32⟩
  | .hbm, ⟨41, _⟩ => ⟨S_, .f32⟩
  | .hbm, ⟨42, _⟩ => ⟨S100000x1, .f32⟩
  | .hbm, ⟨43, _⟩ => ⟨S100000x1, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.BundleSpec.lean ====
/-
  One layer of message passing followed by a normalised linear map, written once as a function of five arrays:
  the node features `x` (100000 rows of 128), the summed incoming messages `s` (same shape), the in-degrees `d`
  (one per node), the weight matrix `w` (128 rows of 256) and the bias `b` (128 entries).

  For node `p` the mean message is `s p / max (d p) 1`. The linear map acts on the row `[x p | mean p]` of
  length 256: its first 128 entries meet columns 0 … 127 of the weights and its last 128 meet columns 128 … 255,
  so the product is the sum of two sums over 128 terms. The row of results is divided by its Euclidean length
  (raised to at least a small constant) and negative entries are replaced by zero.

  A sum over 256 terms is the sum over the first 128 plus the sum over the last 128 in any commutative monoid;
  on the extended reals this needs no finiteness.
-/
import Idealize.ShloMosaic.PureOps.Ideal
import Idealize.ShloMosaic.PureOps.Ideal.Laws
import Idealize.ShloMosaic.Lib.ValueIdx

noncomputable section

open scoped BigOperators

namespace Cert.Bundle

open Idealize.ShloMosaic Idealize.ShloMosaic.ValueIdx

/-- Column `k` of the first half of a row of 256. -/
def lo (k : Fin 128) : Fin 256 := ⟨k.val, Nat.lt_of_lt_of_le k.isLt (by decide)⟩
/-- Column `k` of the second half of a row of 256. -/
def hi (k : Fin 128) : Fin 256 := ⟨128 + k.val, by have := k.isLt; omega⟩

@[simp] theorem lo_val (k : Fin 128) : (lo k).val = k.val := rfl
@[simp] theorem hi_val (k : Fin 128) : (hi k).val = 128 + k.val := rfl

/-- A sum over 256 terms splits into the sum over the first 128 and the sum over the last 128. -/
theorem sum_halves {M : Type*} [AddCommMonoid M] (f : Fin 256 → M) :
    ∑ k : Fin 256, f k = ∑ k : Fin 128, f (lo k) + ∑ k : Fin 128, f (hi k) :=
  Fin.sum_univ_add (a := 128) (b := 128) f

/-- The mean incoming message at node `p`, feature `k`: the summed messages over the in-degree, the degree
    raised to at least one. -/
def mean (s : (⟨2, ![100000, 128]⟩ : Shape).Idx → EReal) (d : (⟨1, ![100000]⟩ : Shape).Idx → EReal)
    (p : Fin 100000) (k : Fin 128) : EReal :=
  Ideal.div (s (ix2 p k)) (max (d (ix1 p)) (Ideal.ofBits .f32 0x3F800000#32))

/-- Entry `(p, j)` of the linear map applied to the row `[x p | mean p]`, bias added: the two halves of the row
    meet the two halves of row `j` of the weights. -/
def lin (x s : (⟨2, ![100000, 128]⟩ : Shape).Idx → EReal) (d : (⟨1, ![100000]⟩ : Shape).Idx → EReal)
    (w : (⟨2, ![128, 256]⟩ : Shape).Idx → EReal) (b : (⟨1, ![128]⟩ : Shape).Idx → EReal)
    (p : Fin 100000) (j : Fin 128) : EReal :=
  (∑ k : Fin 128, x (ix2 p k) * w (ix2 j (lo k)) + ∑ k : Fin 128, mean s d p k * w (ix2 j (hi k))) + b (ix1 j)

/-- A row `v` of 128 entries divided by its Euclidean length (at least a small constant), negative entries set to
    zero, read at entry `j`. -/
def unit (v : Fin 128 → EReal) (j : Fin 128) : EReal :=
  max (Ideal.div (v j) (max (Ideal.sqrt (∑ k : Fin 128, v k * v k)) (Ideal.ofBits .f32 0x2B8CBCCC#32)))
    (Ideal.ofBits .f32 0x00000000#32)

/-- The layer's result at `(p, j)`. -/
def out (x s : (⟨2, ![100000, 128]⟩ : Shape).Idx → EReal) (d : (⟨1, ![100000]⟩ : Shape).Idx → EReal)
    (w : (⟨2, ![128, 256]⟩ : Shape).Idx → EReal) (b : (⟨1, ![128]⟩ : Shape).Idx → EReal) :
    (⟨2, ![100000, 128]⟩ : Shape).Idx → EReal :=
  fun i => unit (lin x s d w b (i 0)) (i 1)

end Cert.Bundle

end
-- ==== Proof.KernelHost.lean ====
/-
  What the seven windows' arrays hold when the region is entered. The features, weights, bias and the two index
  arrays are the arguments as launched. Before the region the program gathers the features along the (wrapped)
  source indices and sums them into the target nodes (`summed`), counts the edges into each node (`degree`) and
  keeps that count as a column, cuts the weights into their first and last 128 columns and transposes each half,
  and keeps the bias as one row. Read at an entry:

    the degree column at `(p, 0)` is the count at `p`;
    the first transposed half at `(k, j)` is the weights' `(j, k)`, the second half's is the weights' `(j, 128 + k)`;
    the bias row at `(0, j)` is the bias at `j`.

  The two scatter results are named and never opened.
-/
import proofs.«150317_j6957847019592_2_alg».proof.Proof.Gen.KernelIdeal.Frame
import proofs.«150317_j6957847019592_2_alg».proof.Proof.LibKeepdims
import proofs.«150317_j6957847019592_2_alg».proof.Proof.BundleSpec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx
open Cert.Bundle (lo hi)

variable {F : FTy → Type} [FloatOps F]

/-- The messages summed into their target nodes: the features gathered along the source indices (a negative index
    counted from the end), added into a zero array at the target indices. -/
def summed (x0 : (⟨S100000x128, .f32⟩ : BufTy).Contents (Elt F)) (x3 x4 : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x4)
    (Host.gather gather_S100000x128_S1600000x1_S1600000x128_1_0_n_n_0_1_1128 x0
      (broadcastInDim S1600000x1 ![0] bcast_S1600000_S1600000x1_0
        (select (cmpi .slt x3 (broadcastInDim S1600000 ![] bcast_S_S1600000 (constantI S_ 32 0#32)))
          (addi x3 (broadcastInDim S1600000 ![] bcast_S_S1600000 (constantI S_ 32 100000#32))) x3)))

/-- The number of edges into each node: ones added into a zero vector at the target indices. -/
def degree (x4 : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 x4)
    (broadcastInDim S1600000 ![] bcast_S_S1600000 (constant S_ .f32 0x3F800000#32))

variable (m : (ℓ : Loc nD τ sig) → Buf (Elt F) ℓ)

/-- Window 1's array: the summed messages of the arguments. -/
theorem V_summed (c : Dev nD) :
    (V m c main_v9 : (⟨S100000x128, .f32⟩ : BufTy).Contents (Elt F))
      = summed (m ((c : Thread nD τ).loc main_arg0)) (m ((c : Thread nD τ).loc main_arg3)) (m ((c : Thread nD τ).loc main_arg4)) := by
  dsimp only [V, hostOps0]
  after_results
  rfl

/-- Window 2's array: the degrees kept as a column. -/
theorem V_degree (c : Dev nD) :
    (V m c main_v14 : (⟨S100000x1, .f32⟩ : BufTy).Contents (Elt F))
      = shapeCast S100000x1 (degree (F := F) (m ((c : Thread nD τ).loc main_arg4))) shapeCasts_S100000_S100000x1 := by
  dsimp only [V, hostOps0]
  after_results
  rfl

/-- Window 3's array: the first 128 columns of the weights, transposed. -/
theorem V_first_half (c : Dev nD) :
    (V m c main_v17 : (⟨S128x128, .bf16⟩ : BufTy).Contents (Elt F))
      = truncf .bf16 (transpose S128x128 [1, 0]
          (extractStridedSlice S128x128 ![0, 0] (m ((c : Thread nD τ).loc main_arg1)) slices_S128x256_S128x128_0_0)
          transposes_S128x128_S128x128_1_0) bitsLt_bf16_f32 := by
  dsimp only [V, hostOps0]
  after_results

/-- Window 4's array: the last 128 columns of the weights, transposed. -/
theorem V_second_half (c : Dev nD) :
    (V m c main_v20 : (⟨S128x128, .bf16⟩ : BufTy).Contents (Elt F))
      = truncf .bf16 (transpose S128x128 [1, 0]
          (extractStridedSlice S128x128 ![0, 128] (m ((c : Thread nD τ).loc main_arg1)) slices_S128x256_S128x128_0_128)
          transposes_S128x128_S128x128_1_0) bitsLt_bf16_f32 := by
  dsimp only [V, hostOps0]
  after_results

/-- Window 5's array: the bias kept as one row. -/
theorem V_bias_row (c : Dev nD) :
    (V m c main_v21 : (⟨S1x128, .f32⟩ : BufTy).Contents (Elt F))
      = shapeCast S1x128 (m ((c : Thread nD τ).loc main_arg2)) shapeCasts_S128_S1x128 := by
  dsimp only [V, hostOps0]
  after_results
  rfl

/-! ## The re-laid arrays read at an entry -/

/-- A column of counts at `(p, 0)` is the count at `p`. -/
theorem column_apply {α : Type} (d : S100000.Idx → α) (p : Fin 100000) :
    shapeCast S100000x1 d shapeCasts_S100000_S100000x1 (ix2 p (0 : Fin 1)) = d (ix1 p) :=
  Cert.LibKeepdims.shapeCast_a_a1_apply d shapeCasts_S100000_S100000x1 p 0

/-- The first 128 columns of the weights, transposed, at `(k, j)`: the weights' `(j, k)`. -/
theorem first_half_apply {α : Type} (w : S128x256.Idx → α) (k j : Fin 128) :
    transpose S128x128 [1, 0] (extractStridedSlice S128x128 ![0, 0] w slices_S128x256_S128x128_0_0)
      transposes_S128x128_S128x128_1_0 (ix2 k j) = w (ix2 j (lo k)) :=
  (transpose_ix2_apply _ transposes_S128x128_S128x128_1_0 k j).trans
    (slice2_axis1_apply 0 w slices_S128x256_S128x128_0_0 j k (lo k) (Nat.zero_add _).symm)

/-- The last 128 columns of the weights, transposed, at `(k, j)`: the weights' `(j, 128 + k)`. -/
theorem second_half_apply {α : Type} (w : S128x256.Idx → α) (k j : Fin 128) :
    transpose S128x128 [1, 0] (extractStridedSlice S128x128 ![0, 128] w slices_S128x256_S128x128_0_128)
      transposes_S128x128_S128x128_1_0 (ix2 k j) = w (ix2 j (hi k)) :=
  (transpose_ix2_apply _ transposes_S128x128_S128x128_1_0 k j).trans
    (slice2_axis1_apply 128 w slices_S128x256_S128x128_0_128 j k (hi k) rfl)

/-- The bias kept as one row at `(0, j)`: the bias at `j`. -/
theorem bias_row_apply {α : Type} (b : S128.Idx → α) (j : Fin 128) :
    shapeCast S1x128 b shapeCasts_S128_S1x128 (ix2 (0 : Fin 1) j) = b (ix1 j) :=
  shapeCast_a_1a_apply b shapeCasts_S128_S1x128 0 j

end Cert.KernelIdeal.HostSide

end
-- ==== Proof.KernelBody.lean ====
/-
  What the kernel body stores, entry by entry. A block is 4000 consecutive nodes. From the block of features `x`,
  the block of summed messages `s`, the column of in-degrees `d`, the two 128 × 128 halves `wa`, `wb` of the
  transposed weights and the bias row `b`, entry `(r, j)` of the stored block is

      relu ( L r j / max (sqrt (∑ k, L r k * L r k)) ε ),
      L r j = (∑ k, x r k * wa k j + ∑ k, (s r k / max (d r) 1) * wb k j) + b j.

  Changes of float format are the identity on the extended reals, a product into a zero accumulator is the plain
  sum of products, and a row sum kept as a column and spread back over the row is read at its row.
-/
import proofs.«150317_j6957847019592_2_alg».proof.Proof.Gen.KernelIdeal.Skeleton
import proofs.«150317_j6957847019592_2_alg».proof.Proof.LibKeepdims
import proofs.«150317_j6957847019592_2_alg».proof.Proof.BundleSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The left operand's index of the block product at output `i` and contracted position `q`: row of `i`. -/
theorem lhs_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
/-- … column the contracted position. -/
theorem lhs_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's index: row the contracted position, -/
theorem rhs_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … column of `i`. -/
theorem rhs_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A 4000 × 128 block times a 128 × 128 matrix, accumulated from zero, at `(r, j)`: the sum over `k` of the
    block's `(r, k)` times the matrix's `(k, j)`. -/
theorem block_product_apply {φ₁ φ₂ : FTy} (lhs : FVec Ideal S4000x128 φ₁) (rhs : FVec Ideal S128x128 φ₂) (r : Fin 4000) (j : Fin 128) :
    matmul dot_S4000x128_S128x128_S4000x128_1_0_0_1_n_n none lhs rhs (constant S4000x128 .f32 0x00000000#32) (ix2 r j)
      = ∑ k : Fin 128, lhs (ix2 r k) * rhs (ix2 k j) := by
  simp only [matmul]
  rw [Ideal.matmul_constant_zero_apply,
    ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 r j)
      ((contrEquiv1 dot_S4000x128_S128x128_S4000x128_1_0_0_1_n_n 128 rfl rfl).symm k) = ix2 r k :=
    funext fun a => Fin.ext (by
      match a with
      | ⟨0, _⟩ => exact lhs_row _ _
      | ⟨1, _⟩ => exact (lhs_col _ _).trans hk)
  have er : dot_S4000x128_S128x128_S4000x128_1_0_0_1_n_n.rhsIdx (ix2 r j)
      ((contrEquiv1 dot_S4000x128_S128x128_S4000x128_1_0_0_1_n_n 128 rfl rfl).symm k) = ix2 k j :=
    funext fun a => Fin.ext (by
      match a with
      | ⟨0, _⟩ => exact (rhs_row _ _).trans hk
      | ⟨1, _⟩ => exact rhs_col _ _)
  rw [el, er]

/-- The block's linear part at `(r, j)`: the features' row `r` against column `j` of the first half of the weights,
    plus the mean messages' row `r` against column `j` of the second half, plus the bias. -/
def linBlk (d : S4000x1.Idx → EReal) (s x : S4000x128.Idx → EReal) (wa wb : S128x128.Idx → EReal) (b : S1x128.Idx → EReal)
    (r : Fin 4000) (j : Fin 128) : EReal :=
  (∑ k : Fin 128, x (ix2 r k) * wa (ix2 k j)
    + ∑ k : Fin 128, Ideal.div (s (ix2 r k)) (max (d (ix2 r (0 : Fin 1))) (Ideal.ofBits .f32 0x3F800000#32)) * wb (ix2 k j))
    + b (ix2 (0 : Fin 1) j)

section AnyValues
variable {F : FTy → Type} [FloatOps F]

/-- The body's operations up to the bias, as one vector expression. -/
def pre (v0 : Vec F S4000x1 .f32) (v4 v8 : Vec F S4000x128 .f32) (v11 v14 : Vec F S128x128 .bf16) (v18 : Vec F S1x128 .f32) :
    FVec F S4000x128 .f32 :=
  addf (addf
      (matmul dot_S4000x128_S128x128_S4000x128_1_0_0_1_n_n none (truncf .bf16 v8 bitsLt_bf16_f32)
        (shapeCast S128x128 v11 shapeCasts_S128x128_S128x128) (constant S4000x128 .f32 0x00000000#32))
      (matmul dot_S4000x128_S128x128_S4000x128_1_0_0_1_n_n none
        (truncf .bf16 (divf (shapeCast S4000x128 v4 shapeCasts_S4000x128_S4000x128)
          (broadcastTo S4000x128 (maximumf (shapeCast S4000x1 v0 shapeCasts_S4000x1_S4000x1)
            (broadcast S4000x1 (Scalar.ofBits .f32 0x3F800000#32))) broadcasts_S4000x1_S4000x128)) bitsLt_bf16_f32)
        (shapeCast S128x128 v14 shapeCasts_S128x128_S128x128) (constant S4000x128 .f32 0x00000000#32)))
    (broadcastTo S4000x128 (shapeCast S1x128 v18 shapeCasts_S1x128_S1x128) broadcasts_S1x128_S4000x128)

/-- The body's operations after the bias: each row over its Euclidean length, negative entries set to zero. -/
def post (v : FVec F S4000x128 .f32) : FVec F S4000x128 .f32 :=
  maximumf (divf v (broadcastTo S4000x128 (maximumf
      (sqrt (shapeCast S4000x1 (multiReduction .add [1] S4000 (mulf v v) 0x00000000#32 reduces_S4000x128_S4000 (.inl rfl) rfl)
        shapeCasts_S4000_S4000x1))
      (broadcast S4000x1 (Scalar.ofBits .f32 0x2B8CBCCC#32))) broadcasts_S4000x1_S4000x128))
    (broadcast S4000x128 (Scalar.ofBits .f32 0x00000000#32))

/-- The stored value is the second stage of the first. -/
theorem pay_eq (v0 : Vec F S4000x1 .f32) (v4 v8 : Vec F S4000x128 .f32) (v11 v14 : Vec F S128x128 .bf16) (v18 : Vec F S1x128 .f32) :
    k0_pay1 v0 v4 v8 v11 v14 v18 = post (pre v0 v4 v8 v11 v14 v18) := rfl

end AnyValues

/-- The first stage at `(r, j)`. -/
theorem pre_apply (v0 : Vec Ideal S4000x1 .f32) (v4 v8 : Vec Ideal S4000x128 .f32) (v11 v14 : Vec Ideal S128x128 .bf16) (v18 : Vec Ideal S1x128 .f32)
    (r : Fin 4000) (j : Fin 128) :
    pre (F := Ideal) v0 v4 v8 v11 v14 v18 (ix2 r j) = linBlk v0 v4 v8 v11 v14 v18 r j := by
  unfold pre linBlk
  simp only [shapeCast_self]
  rw [addf_apply, addf_apply, block_product_apply, block_product_apply, broadcastTo_1b_ab_apply]
  refine congrArg₂ (· + ·) (congrArg₂ (· + ·) rfl (Finset.sum_congr rfl fun k _ => ?_)) rfl
  refine congrArg (· * v14 (ix2 k j)) ?_
  show Ideal.div (v4 (ix2 r k)) (broadcastTo S4000x128 (maximumf (F := Ideal) (φ := .f32) v0 (broadcast S4000x1 (Scalar.ofBits (F := Ideal) .f32 0x3F800000#32)))
    broadcasts_S4000x1_S4000x128 (ix2 r k)) = _
  rw [Cert.LibKeepdims.broadcastTo_a1_ab_apply]
  rfl

/-- The second stage at `(r, j)` depends on row `r` of its argument only. -/
theorem post_apply (v : FVec Ideal S4000x128 .f32) (r : Fin 4000) (j : Fin 128) :
    post (F := Ideal) v (ix2 r j) = Cert.Bundle.unit (fun q => v (ix2 r q)) j := by
  unfold post Cert.Bundle.unit
  rw [maximumf_apply, divf_apply, Cert.LibKeepdims.broadcastTo_a1_ab_apply, maximumf_apply]
  show max (Ideal.div (v (ix2 r j)) (max (Ideal.sqrt (shapeCast S4000x1 (multiReduction (F := Ideal) (φ := .f32) .add [1] S4000 (mulf (F := Ideal) (φ := .f32) v v) 0x00000000#32
    reduces_S4000x128_S4000 (.inl rfl) rfl) shapeCasts_S4000_S4000x1 (ix2 r (0 : Fin 1)))) (Ideal.ofBits .f32 0x2B8CBCCC#32)))
    (Ideal.ofBits .f32 0x00000000#32) = _
  rw [Cert.LibKeepdims.shapeCast_a_a1_apply]
  refine congrArg (fun z => max (Ideal.div (v (ix2 r j)) (max (Ideal.sqrt z) (Ideal.ofBits .f32 0x2B8CBCCC#32))) (Ideal.ofBits .f32 0x00000000#32)) ?_
  exact Cert.LibKeepdims.rowSum_apply (mulf (F := Ideal) (φ := .f32) v v) reduces_S4000x128_S4000 (.inl rfl) rfl r

/-- Entry `(r, j)` of what the body stores. -/
theorem stored_apply (v0 : Vec Ideal S4000x1 .f32) (v4 v8 : Vec Ideal S4000x128 .f32) (v11 v14 : Vec Ideal S128x128 .bf16) (v18 : Vec Ideal S1x128 .f32)
    (r : Fin 4000) (j : Fin 128) :
    k0_pay1 (F := Ideal) v0 v4 v8 v11 v14 v18 (ix2 r j) = Cert.Bundle.unit (linBlk v0 v4 v8 v11 v14 v18 r) j := by
  rw [pay_eq, post_apply]
  exact congrArg (fun f => Cert.Bundle.unit f j) (funext fun q => pre_apply v0 v4 v8 v11 v14 v18 r q)

end Cert.KernelIdeal.Body

end
-- ==== Proof.KernelPoint.lean ====
/-
  One stored entry as the layer's result. If the blocks the body loads are rows `base … base + 3999` of the
  features, of the summed messages and of the degree column, the two transposed halves of the weights and the bias
  row, then entry `(r, j)` of what the body stores is the layer's function `Cert.Bundle.out` of the five arrays at
  `(base + r, j)`: the block's linear part is the layer's linear map read at that row, term by term.
-/
import proofs.«150317_j6957847019592_2_alg».proof.Proof.KernelBody
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx
open Cert.Bundle (lo hi)

/-- Row `r` of the block that starts at row `base`. -/
def row (base : ℕ) (hb : base + 4000 ≤ 100000) (r : Fin 4000) : Fin 100000 := ⟨base + r.val, by have := r.isLt; omega⟩

/-- One stored entry, from what the six loaded blocks are as rows of five arrays: if the first three blocks are rows
    `base …` of `X`, `S` and of the column of `D`, the next two the transposed halves of `W`, and the last the row of
    `B`, then the body's entry `(r, j)` is the layer's result at `(base + r, j)`. -/
theorem point_eq (x0 x1 : S4000x128.Idx → EReal) (x2 : S4000x1.Idx → EReal) (x3 x4 : S128x128.Idx → EReal) (x5 : S1x128.Idx → EReal)
    (X S : (⟨2, ![100000, 128]⟩ : Shape).Idx → EReal) (D : (⟨1, ![100000]⟩ : Shape).Idx → EReal)
    (W : (⟨2, ![128, 256]⟩ : Shape).Idx → EReal) (B : (⟨1, ![128]⟩ : Shape).Idx → EReal)
    (base : ℕ) (hb : base + 4000 ≤ 100000)
    (h0 : ∀ (r : Fin 4000) (k : Fin 128), x0 (ix2 r k) = X (ix2 (row base hb r) k))
    (h1 : ∀ (r : Fin 4000) (k : Fin 128), x1 (ix2 r k) = S (ix2 (row base hb r) k))
    (h2 : ∀ r : Fin 4000, x2 (ix2 r (0 : Fin 1)) = D (ix1 (row base hb r)))
    (h3 : ∀ k j : Fin 128, x3 (ix2 k j) = W (ix2 j (lo k)))
    (h4 : ∀ k j : Fin 128, x4 (ix2 k j) = W (ix2 j (hi k)))
    (h5 : ∀ j : Fin 128, x5 (ix2 (0 : Fin 1) j) = B (ix1 j))
    (y : S4000x128.Idx) (i : (⟨2, ![100000, 128]⟩ : Shape).Idx)
    (hi0 : (i 0).val = base + (y 0).val) (hi1 : (i 1).val = (y 1).val) :
    k0_pay1 (F := Ideal) x2 x1 x0 x3 x4 x5 y = Cert.Bundle.out X S D W B i := by
  obtain ⟨r, j, rfl⟩ : ∃ (r : Fin 4000) (j : Fin 128), y = ix2 r j := ⟨y 0, y 1, eq_ix2 y⟩
  obtain rfl : i = ix2 (row base hb r) j :=
    (eq_ix2 i).trans (congrArg₂ ix2 (Fin.ext hi0) (Fin.ext hi1))
  rw [Body.stored_apply]
  show Cert.Bundle.unit _ j = Cert.Bundle.unit (Cert.Bundle.lin X S D W B (row base hb r)) j
  refine congrArg (fun f => Cert.Bundle.unit f j) (funext fun q => ?_)
  unfold Body.linBlk Cert.Bundle.lin Cert.Bundle.mean
  rw [h2, h5]
  exact congrArg₂ (· + ·) (congrArg₂ (· + ·) (Finset.sum_congr rfl fun k _ => by rw [h0, h3])
    (Finset.sum_congr rfl fun k _ => by rw [h1, h4])) rfl

end Cert.KernelIdeal.Whole

end
-- ==== Proof.KernelBlocks.lean ====
/-
  The six input blocks of a grid point as rows of the arrays. Grid point `t` (of 25) works on nodes
  `4000 t … 4000 t + 3999`: its blocks of the features, of the summed messages and of the degree column are those
  rows of the three arrays; the two transposed halves of the weights and the bias row are whole at every point. An
  entry of a block sits in its array at block index × block size + the entry's own coordinate, on each axis.
-/
import proofs.«150317_j6957847019592_2_alg».proof.Proof.Gen.KernelIdeal.Frame
import proofs.«150317_j6957847019592_2_alg».proof.Proof.KernelHost
import proofs.«150317_j6957847019592_2_alg».proof.Proof.KernelPoint
import Idealize.ShloMosaic.Lib.Pipeline.Value
import Idealize.ShloMosaic.Lib.Tactic

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx
open Cert.Bundle (lo hi)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 25 points: the three row-blocked inputs and the output sit at block `(t, 0)`,
    the three resident inputs at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Point `t`'s rows lie inside the array. -/
theorem rows_in (t : Fin cfg0.N) : t.val * 4000 + 4000 ≤ 100000 := by
  have := t.isLt
  have hN : cfg0.N = 25 := N_0
  omega

/-! ## The six input blocks at point `t`, as rows of the arrays -/

theorem features_block (c : Dev nD) (t : Fin cfg0.N) (r : Fin 4000) (k : Fin 128) :
    (iblk m c 0 t : S4000x128.Idx → EReal) (ix2 r k)
      = (m ((c : Thread nD τ).loc main_arg0) : (⟨2, ![100000, 128]⟩ : Shape).Idx → EReal) (ix2 (row (t.val * 4000) (rows_in t) r) k) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 4000 + 1 * r.val = t.val * 4000 + r.val; rw [e0]; omega
  | ⟨1, _⟩ => show win0_0.index t (1 : Fin 2) * 128 + 1 * k.val = k.val; rw [e1]; omega

/-- A block of window 1 at point `t` is rows `4000 t …` of whatever array `S` the region finds there. -/
theorem rows_of_window1 (c : Dev nD) (t : Fin cfg0.N) (S : (⟨2, ![100000, 128]⟩ : Shape).Idx → EReal)
    (hS : V m c (Pipeline.arrRef spec0 1) = S) (r : Fin 4000) (k : Fin 128) :
    (iblk m c 1 t : S4000x128.Idx → EReal) (ix2 r k) = S (ix2 (row (t.val * 4000) (rows_in t) r) k) := by
  obtain ⟨-, -, e0, e1, -⟩ := idx_facts t
  unfold iblk
  rw [View.read_apply, hS]
  refine congrArg S (funext fun a => Fin.ext ?_)
  match a with
  | ⟨0, _⟩ => show win0_1.index t (0 : Fin 2) * 4000 + 1 * r.val = t.val * 4000 + r.val; rw [e0]; omega
  | ⟨1, _⟩ => show win0_1.index t (1 : Fin 2) * 128 + 1 * k.val = k.val; rw [e1]; omega

theorem summed_block (c : Dev nD) (t : Fin cfg0.N) (r : Fin 4000) (k : Fin 128) :
    (iblk m c 1 t : S4000x128.Idx → EReal) (ix2 r k)
      = HostSide.summed (F := Ideal) (m ((c : Thread nD τ).loc main_arg0)) (m ((c : Thread nD τ).loc main_arg3)) (m ((c : Thread nD τ).loc main_arg4))
          (ix2 (row (t.val * 4000) (rows_in t) r) k) :=
  rows_of_window1 m c t _ (HostSide.V_summed m c) r k

/-- A block of window 2 at point `t` is rows `4000 t …` of whatever column `Dc` the region finds there. -/
theorem rows_of_window2 (c : Dev nD) (t : Fin cfg0.N) (Dc : (⟨2, ![100000, 1]⟩ : Shape).Idx → EReal)
    (hD : V m c (Pipeline.arrRef spec0 2) = Dc) (r : Fin 4000) :
    (iblk m c 2 t : S4000x1.Idx → EReal) (ix2 r (0 : Fin 1)) = Dc (ix2 (row (t.val * 4000) (rows_in t) r) (0 : Fin 1)) := by
  obtain ⟨-, -, -, -, e0, e1, -⟩ := idx_facts t
  unfold iblk
  rw [View.read_apply, hD]
  refine congrArg Dc (funext fun a => Fin.ext ?_)
  match a with
  | ⟨0, _⟩ => show win0_2.index t (0 : Fin 2) * 4000 + 1 * r.val = t.val * 4000 + r.val; rw [e0]; omega
  | ⟨1, _⟩ => show win0_2.index t (1 : Fin 2) * 1 + 1 * 0 = 0; rw [e1]

theorem degree_block (c : Dev nD) (t : Fin cfg0.N) (r : Fin 4000) :
    (iblk m c 2 t : S4000x1.Idx → EReal) (ix2 r (0 : Fin 1))
      = HostSide.degree (F := Ideal) (m ((c : Thread nD τ).loc main_arg4)) (ix1 (row (t.val * 4000) (rows_in t) r)) :=
  (rows_of_window2 m c t _ (HostSide.V_degree m c) r).trans (HostSide.column_apply _ (row (t.val * 4000) (rows_in t) r))

theorem first_half_block (c : Dev nD) (t : Fin cfg0.N) (k j : Fin 128) :
    (iblk m c 3 t : S128x128.Idx → EReal) (ix2 k j)
      = (m ((c : Thread nD τ).loc main_arg1) : (⟨2, ![128, 256]⟩ : Shape).Idx → EReal) (ix2 j (lo k)) := by
  obtain ⟨-, -, -, -, -, -, e0, e1, -⟩ := idx_facts t
  unfold iblk
  rw [View.read_apply]
  show V m c main_v17 _ = _
  rw [HostSide.V_first_half]
  show transpose S128x128 [1, 0] (extractStridedSlice S128x128 ![0, 0] (m ((c : Thread nD τ).loc main_arg1)) slices_S128x256_S128x128_0_0)
    transposes_S128x128_S128x128_1_0 _ = _
  refine (congrArg (transpose S128x128 [1, 0] (extractStridedSlice S128x128 ![0, 0] (m ((c : Thread nD τ).loc main_arg1)) slices_S128x256_S128x128_0_0)
    transposes_S128x128_S128x128_1_0) (funext fun a => Fin.ext ?_)).trans (HostSide.first_half_apply _ k j)
  match a with
  | ⟨0, _⟩ => show win0_3.index t (0 : Fin 2) * 128 + 1 * k.val = k.val; rw [e0]; omega
  | ⟨1, _⟩ => show win0_3.index t (1 : Fin 2) * 128 + 1 * j.val = j.val; rw [e1]; omega

theorem second_half_block (c : Dev nD) (t : Fin cfg0.N) (k j : Fin 128) :
    (iblk m c 4 t : S128x128.Idx → EReal) (ix2 k j)
      = (m ((c : Thread nD τ).loc main_arg1) : (⟨2, ![128, 256]⟩ : Shape).Idx → EReal) (ix2 j (hi k)) := by
  obtain ⟨-, -, -, -, -, -, -, -, e0, e1, -⟩ := idx_facts t
  unfold iblk
  rw [View.read_apply]
  show V m c main_v20 _ = _
  rw [HostSide.V_second_half]
  show transpose S128x128 [1, 0] (extractStridedSlice S128x128 ![0, 128] (m ((c : Thread nD τ).loc main_arg1)) slices_S128x256_S128x128_0_128)
    transposes_S128x128_S128x128_1_0 _ = _
  refine (congrArg (transpose S128x128 [1, 0] (extractStridedSlice S128x128 ![0, 128] (m ((c : Thread nD τ).loc main_arg1)) slices_S128x256_S128x128_0_128)
    transposes_S128x128_S128x128_1_0) (funext fun a => Fin.ext ?_)).trans (HostSide.second_half_apply _ k j)
  match a with
  | ⟨0, _⟩ => show win0_4.index t (0 : Fin 2) * 128 + 1 * k.val = k.val; rw [e0]; omega
  | ⟨1, _⟩ => show win0_4.index t (1 : Fin 2) * 128 + 1 * j.val = j.val; rw [e1]; omega

theorem bias_block (c : Dev nD) (t : Fin cfg0.N) (j : Fin 128) :
    (iblk m c 5 t : S1x128.Idx → EReal) (ix2 (0 : Fin 1) j)
      = (m ((c : Thread nD τ).loc main_arg2) : (⟨1, ![128]⟩ : Shape).Idx → EReal) (ix1 j) := by
  obtain ⟨-, -, -, -, -, -, -, -, -, -, e0, e1, -⟩ := idx_facts t
  unfold iblk
  rw [View.read_apply]
  show V m c main_v21 _ = _
  rw [HostSide.V_bias_row]
  refine (congrArg (shapeCast S1x128 (m ((c : Thread nD τ).loc main_arg2)) shapeCasts_S128_S1x128)
    (funext fun a => Fin.ext ?_)).trans (HostSide.bias_row_apply _ j)
  match a with
  | ⟨0, _⟩ => show win0_5.index t (0 : Fin 2) * 1 + 1 * 0 = 0; rw [e0]
  | ⟨1, _⟩ => show win0_5.index t (1 : Fin 2) * 128 + 1 * j.val = j.val; rw [e1]; omega

end Cert.KernelIdeal.Whole

end
-- ==== Proof.KernelValue.lean ====
/-
  From blocks to the whole array. The block grid point `t` writes back is rows `4000 t … 4000 t + 3999` of the
  result; every entry the body stores is the layer's function `Cert.Bundle.out` of the arguments at the corresponding
  array entry, and the 25 written blocks cover the 100000 rows, so the result array ends holding that function.
-/
import proofs.«150317_j6957847019592_2_alg».proof.Proof.Gen.KernelIdeal.Value
import proofs.«150317_j6957847019592_2_alg».proof.Proof.KernelBlocks
import Idealize.ShloMosaic.Lib.Pipeline.Value
import Idealize.ShloMosaic.Lib.Tactic

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx
open Cert.Bundle (lo hi)

variable (m : (ℓ : Loc nD τ sig) → Buf (Elt Ideal) ℓ) (ρ : Dev nD → PrngReg)

/-- The layer's result from the arguments as launched. -/
def result (c : Dev nD) : (⟨2, ![100000, 128]⟩ : Shape).Idx → EReal :=
  Cert.Bundle.out (m ((c : Thread nD τ).loc main_arg0))
    (HostSide.summed (F := Ideal) (m ((c : Thread nD τ).loc main_arg0)) (m ((c : Thread nD τ).loc main_arg3)) (m ((c : Thread nD τ).loc main_arg4)))
    (HostSide.degree (F := Ideal) (m ((c : Thread nD τ).loc main_arg4)))
    (m ((c : Thread nD τ).loc main_arg1)) (m ((c : Thread nD τ).loc main_arg2))

/-! ## What a point writes back, the cover, the array -/

/-- What point `t` writes back, for any five arrays of which the point's six input blocks are the rows and re-laid
    pieces the body expects: block `t` of the layer's function of those arrays. -/
theorem flushed_of (c : Dev nD) (t : Fin cfg0.N)
    (X S : (⟨2, ![100000, 128]⟩ : Shape).Idx → EReal) (D : (⟨1, ![100000]⟩ : Shape).Idx → EReal)
    (W : (⟨2, ![128, 256]⟩ : Shape).Idx → EReal) (B : (⟨1, ![128]⟩ : Shape).Idx → EReal)
    (h0 : ∀ (r : Fin 4000) (k : Fin 128), (iblk m c 0 t : S4000x128.Idx → EReal) (ix2 r k) = X (ix2 (row (t.val * 4000) (rows_in t) r) k))
    (h1 : ∀ (r : Fin 4000) (k : Fin 128), (iblk m c 1 t : S4000x128.Idx → EReal) (ix2 r k) = S (ix2 (row (t.val * 4000) (rows_in t) r) k))
    (h2 : ∀ r : Fin 4000, (iblk m c 2 t : S4000x1.Idx → EReal) (ix2 r (0 : Fin 1)) = D (ix1 (row (t.val * 4000) (rows_in t) r)))
    (h3 : ∀ k j : Fin 128, (iblk m c 3 t : S128x128.Idx → EReal) (ix2 k j) = W (ix2 j (lo k)))
    (h4 : ∀ k j : Fin 128, (iblk m c 4 t : S128x128.Idx → EReal) (ix2 k j) = W (ix2 j (hi k)))
    (h5 : ∀ j : Fin 128, (iblk m c 5 t : S1x128.Idx → EReal) (ix2 (0 : Fin 1) j) = B (ix1 j)) :
    (dats m 0 c).flushed 6 t = ((cfg0.win 6).blk t).view.read (Elt Ideal) (Cert.Bundle.out X S D W B) := by
  rw [Value.flushed6]
  unfold out0_6
  rw [View.canon_unit_zero hz]
  simp only [View.ld_unit_zero (S := S4000x128) hz, View.ld_unit_zero (S := S4000x1) hz,
    View.ld_unit_zero (S := S128x128) hz, View.ld_unit_zero (S := S1x128) hz]
  obtain ⟨-, -, -, -, -, -, -, -, -, -, -, -, e0, e1⟩ := idx_facts t
  funext y
  show k0_pay1 (F := Ideal) (iblk m c 2 t) (iblk m c 1 t) (iblk m c 0 t) (iblk m c 3 t) (iblk m c 4 t) (iblk m c 5 t) y
    = Cert.Bundle.out X S D W B (((cfg0.win 6).blk t).view.emb y)
  refine point_eq (iblk m c 0 t) (iblk m c 1 t) (iblk m c 2 t) (iblk m c 3 t) (iblk m c 4 t) (iblk m c 5 t) X S D W B
    (t.val * 4000) (rows_in t) h0 h1 h2 h3 h4 h5 y _ ?_ ?_
  · show win0_6.index t (0 : Fin 2) * 4000 + 1 * (y 0).val = t.val * 4000 + (y 0).val
    rw [e0]; omega
  · show win0_6.index t (1 : Fin 2) * 128 + 1 * (y 1).val = (y 1).val
    rw [e1]; omega

/-- What point `t` writes back is block `t` of the layer's result. -/
theorem flushed_eq (c : Dev nD) (t : Fin cfg0.N) :
    (dats m 0 c).flushed 6 t = ((cfg0.win 6).blk t).view.read (Elt Ideal) (result m c) :=
  flushed_of m c t _ _ _ _ _ (features_block m c t) (summed_block m c t) (degree_block m c t) (first_half_block m c t)
    (second_half_block m c t) (bias_block m c t)

/-- An entry is in point `t`'s output block iff each coordinate is in the block's range. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v22).slice (win0_6.rect t)).set ↔ _
  rw [View.set_slice_whole, Rect.mem_set_unit]
  exact Iff.rfl

/-- Row `p` is written by point `p / 4000`. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  have ht : (i 0).val / 4000 < cfg0.N := by rw [hN]; omega
  refine ⟨⟨(i 0).val / 4000, ht⟩, flush0_6 _, ?_⟩
  rw [mem_blk]
  obtain ⟨-, -, -, -, -, -, -, -, -, -, -, -, e0, e1⟩ := idx_facts ⟨(i 0).val / 4000, ht⟩
  intro a
  match a with
  | ⟨0, _⟩ =>
    show win0_6.index ⟨(i 0).val / 4000, ht⟩ (0 : Fin 2) * 4000 ≤ (i 0).val
      ∧ (i 0).val < win0_6.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win0_6.index ⟨(i 0).val / 4000, ht⟩ (1 : Fin 2) * 128 ≤ (i 1).val
      ∧ (i 1).val < win0_6.index ⟨(i 0).val / 4000, ht⟩ (1 : Fin 2) * 128 + 128
    rw [e1]
    omega

/-- The result array after the run is the layer's result. -/
theorem final (c : Dev nD) : (dats m 0 c).arrAt 6 cfg0.N = result m c :=
  (dats m 0 c).arrAt_eq_of_cover 6 (result m c) (fun t _ => flushed_eq m c t) cover

/-- The kernel's run, read: the result array at the layer's result of the arguments, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference program read entry by entry. With `s` the summed messages and `d` the in-degrees (the two
  scatter results, left unopened), the reference divides `s` by `max d 1` row by row, joins the features and that
  mean side by side into rows of 256, multiplies by the transposed weights, adds the bias, divides each row by its
  Euclidean length (at least a small constant) and clamps at zero. The product over 256 columns splits into the
  columns that come from the features and those that come from the mean; the result is `Cert.Bundle.out`.
-/
import proofs.«150317_j6957847019592_2_alg».proof.Proof.Gen.ReferenceIdeal.Read
import proofs.«150317_j6957847019592_2_alg».proof.Proof.BundleSpec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Bundle (lo hi)

variable (x0 : (⟨S100000x128, .f32⟩ : BufTy).Contents (Elt Ideal)) (x1 : (⟨S128x256, .f32⟩ : BufTy).Contents (Elt Ideal))
  (x2 : (⟨S128, .f32⟩ : BufTy).Contents (Elt Ideal)) (x3 x4 : (⟨S1600000, .i32⟩ : BufTy).Contents (Elt Ideal))

/-- The mean message at `(p, k)`: the summed messages over the in-degree raised to at least one. -/
theorem mean_apply (p : Fin 100000) (k : Fin 128) :
    val_main_v18 (F := Ideal) x0 x3 x4 (ix2 p k)
      = Cert.Bundle.mean (val_main_v9 (F := Ideal) x0 x3 x4) (val_main_v13 (F := Ideal) x4) p k := by
  have e : idx_main_v16 (idx_main_v17 (ix2 p k)) = ix1 p :=
    funext fun a => Fin.ext (by match a with | ⟨0, _⟩ => rfl)
  rw [val_main_v18_apply, val_main_v17_apply, val_main_v16_apply, val_main_v15_apply, val_main_v14_apply,
    val_main_cst_3_apply, e]
  rfl

/-- The joined row at a column of its first half is the features' entry. -/
theorem joined_lo (p : Fin 100000) (k : Fin 128) :
    val_main_v19 (F := Ideal) x0 x3 x4 (ix2 p (lo k)) = x0 (ix2 p k) := by
  unfold val_main_v19
  exact concatenate_pair_apply_left 1 x0 _ concatenates_S100000x128_S100000x128_S100000x256_d1 _ rfl (ix2 p k)
    (fun b => by match b with | ⟨0, _⟩ => rfl | ⟨1, _⟩ => rfl)

/-- The joined row at a column of its second half is the mean message's entry. -/
theorem joined_hi (p : Fin 100000) (k : Fin 128) :
    val_main_v19 (F := Ideal) x0 x3 x4 (ix2 p (hi k)) = val_main_v18 (F := Ideal) x0 x3 x4 (ix2 p k) := by
  unfold val_main_v19
  exact concatenate_pair_apply_right 1 x0 _ concatenates_S100000x128_S100000x128_S100000x256_d1 _ rfl rfl (ix2 p k)
    (fun b hb => by match b with | ⟨0, _⟩ => rfl | ⟨1, _⟩ => exact absurd rfl hb)
    (Nat.add_comm _ _)

/-- The product of the joined rows with the transposed weights at `(p, j)`: the features against the first 128
    columns of row `j` of the weights plus the mean messages against the last 128. -/
theorem product_apply (p : Fin 100000) (j : Fin 128) :
    val_main_v21 (F := Ideal) x0 x1 x3 x4 (ix2 p j)
      = ∑ k : Fin 128, x0 (ix2 p k) * x1 (ix2 j (lo k))
        + ∑ k : Fin 128, Cert.Bundle.mean (val_main_v9 (F := Ideal) x0 x3 x4) (val_main_v13 (F := Ideal) x4) p k * x1 (ix2 j (hi k)) := by
  have el : ∀ q : Fin 256, lidx_main_v21 (ix2 p j) q = ix2 p q := fun q =>
    funext fun a => Fin.ext (by match a with | ⟨0, _⟩ => rfl | ⟨1, _⟩ => rfl)
  have er : ∀ q : Fin 256, idx_main_v20 (ridx_main_v21 (ix2 p j) q) = ix2 j q := fun q =>
    funext fun a => Fin.ext (by match a with | ⟨0, _⟩ => rfl | ⟨1, _⟩ => rfl)
  rw [val_main_v21_apply, Cert.Bundle.sum_halves]
  refine congrArg₂ (· + ·) (Finset.sum_congr rfl fun k _ => ?_) (Finset.sum_congr rfl fun k _ => ?_)
  · rw [el, val_main_v20_apply, er, joined_lo]
  · rw [el, val_main_v20_apply, er, joined_hi, mean_apply]

/-- With the bias: the linear map of the layer at `(p, j)`. -/
theorem linear_apply (p : Fin 100000) (j : Fin 128) :
    val_main_v24 (F := Ideal) x0 x1 x2 x3 x4 (ix2 p j)
      = Cert.Bundle.lin x0 (val_main_v9 (F := Ideal) x0 x3 x4) (val_main_v13 (F := Ideal) x4) x1 x2 p j := by
  have e : idx_main_v22 (idx_main_v23 (ix2 p j)) = ix1 j :=
    funext fun a => Fin.ext (by match a with | ⟨0, _⟩ => rfl)
  rw [val_main_v24_apply, product_apply, val_main_v23_apply, val_main_v22_apply, e]
  rfl

/-- The reference's result is the layer's function of the features, the two scatter results, the weights and the bias. -/
theorem result_eq :
    val_main_v30 (F := Ideal) x0 x1 x2 x3 x4
      = Cert.Bundle.out x0 (val_main_v9 (F := Ideal) x0 x3 x4) (val_main_v13 (F := Ideal) x4) x1 x2 := by
  funext i
  obtain ⟨p, j, rfl⟩ : ∃ (p : Fin 100000) (j : Fin 128), i = ix2 p j := ⟨i 0, i 1, eq_ix2 i⟩
  have e : ∀ k : Fin 128, idx_main_call0_v1 (idx_main_call0_v2 (idx_main_v28 (ix2 p j))) k = ix2 p k := fun k =>
    funext fun a => Fin.ext (by match a with | ⟨0, _⟩ => rfl | ⟨1, _⟩ => rfl)
  rw [val_main_v30_apply, val_main_v29_apply, val_main_v28_apply, val_main_v27_apply, val_main_v25_apply,
    val_main_call0_v2_apply, val_main_call0_v1_apply, val_main_v26_apply, val_main_cst_4_apply, val_main_call1_v0_apply,
    val_main_call1_cst_apply, val_main_call0_cst_apply, linear_apply]
  have hs : ∑ k : Fin 128, val_main_call0_v0 (F := Ideal) x0 x1 x2 x3 x4 (idx_main_call0_v1 (idx_main_call0_v2 (idx_main_v28 (ix2 p j))) k)
      = ∑ k : Fin 128, Cert.Bundle.lin x0 (val_main_v9 (F := Ideal) x0 x3 x4) (val_main_v13 (F := Ideal) x4) x1 x2 p k
          * Cert.Bundle.lin x0 (val_main_v9 (F := Ideal) x0 x3 x4) (val_main_v13 (F := Ideal) x4) x1 x2 p k :=
    Finset.sum_congr rfl fun k _ => by rw [e, val_main_call0_v0_apply, linear_apply]; rfl
  rw [hs]
  show max (Ideal.div _ (max (Ideal.sqrt (Ideal.ofBits .f32 0x00000000#32 + _)) _)) _ = _
  rw [Ideal.ofBits_zero_f32, zero_add]
  rfl

end Cert.ReferenceIdeal.RefValue

end
-- ==== Proof.lean ====
/-
  The claim: a Pallas kernel for one layer of mean-aggregating message passing followed by a normalised linear map
  and its plain-array reference compute the same result on the extended reals.

  Both programs gather the node features along the edges' sources and sum them into the edges' targets, and count
  the edges into each node; those two arrays are the same terms of the arguments in both and are never opened.
  The reference then divides the sums by `max count 1`, joins features and means into rows of 256, multiplies by the
  transposed weights, adds the bias, divides each row by its Euclidean length (at least a small constant) and
  clamps at zero. The kernel does this 4000 rows at a time, multiplying the features by the first 128 columns of
  the weights and the means by the last 128 and adding the two products. The two agree because a sum over 256
  terms is the sum over its first 128 terms plus the sum over its last 128 (`Cert.Bundle.sum_halves`), which holds in
  any commutative monoid, so no finiteness of the inputs is used.

  The three frames are the generated ones (the reference's is its generated run with the result dropped); the ideal
  pass rewrote nothing, so the idealization claim is trivial.
-/
import proofs.«150317_j6957847019592_2_alg».proof.Defs
import proofs.«150317_j6957847019592_2_alg».proof.Proof.Gen.Kernel
import proofs.«150317_j6957847019592_2_alg».proof.Proof.Gen.Kernel.Skeleton
import proofs.«150317_j6957847019592_2_alg».proof.Proof.Gen.Kernel.Launch
import proofs.«150317_j6957847019592_2_alg».proof.Proof.Gen.Kernel.Points
import proofs.«150317_j6957847019592_2_alg».proof.Proof.Gen.Kernel.Frame
import proofs.«150317_j6957847019592_2_alg».proof.Proof.Gen.KernelIdeal
import proofs.«150317_j6957847019592_2_alg».proof.Proof.Gen.KernelIdeal.Skeleton
import proofs.«150317_j6957847019592_2_alg».proof.Proof.Gen.KernelIdeal.Launch
import proofs.«150317_j6957847019592_2_alg».proof.Proof.Gen.KernelIdeal.Points
import proofs.«150317_j6957847019592_2_alg».proof.Proof.Gen.KernelIdeal.Frame
import proofs.«150317_j6957847019592_2_alg».proof.Proof.Gen.ReferenceIdeal
import proofs.«150317_j6957847019592_2_alg».proof.Proof.Gen.Pre_finite_inputs
import proofs.«150317_j6957847019592_2_alg».proof.Proof.Gen.KernelIdeal.Value
import proofs.«150317_j6957847019592_2_alg».proof.Proof.Gen.ReferenceIdeal.Run
import proofs.«150317_j6957847019592_2_alg».proof.Proof.Gen.ReferenceIdeal.Read
import proofs.«150317_j6957847019592_2_alg».proof.Proof.KernelValue
import proofs.«150317_j6957847019592_2_alg».proof.Proof.RefValue
import Idealize.ShloMosaic.Adequacy
import Idealize.ShloMosaic.Init

noncomputable section

namespace Cert.Proof

open Idealize.ShloMosaic Idealize.SL.Sem

/-- The summed messages are one function of the features and the two index arrays in both programs: the same
    gather and the same accumulating scatter, with the same dimension numbers. -/
theorem summed_eq (x0 : (⟨Cert.ReferenceIdeal.S100000x128, .f32⟩ : BufTy).Contents (Elt Ideal))
    (x3 x4 : (⟨Cert.ReferenceIdeal.S1600000, .i32⟩ : BufTy).Contents (Elt Ideal)) :
    Cert.ReferenceIdeal.Read.val_main_v9 (F := Ideal) x0 x3 x4 = Cert.KernelIdeal.HostSide.summed (F := Ideal) x0 x3 x4 := by
  unfold Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_v4
    Cert.ReferenceIdeal.Read.val_main_v3 Cert.ReferenceIdeal.Read.val_main_v2 Cert.ReferenceIdeal.Read.val_main_v1
    Cert.ReferenceIdeal.Read.val_main_v0 Cert.ReferenceIdeal.Read.val_main_c Cert.ReferenceIdeal.Read.val_main_c_0
    Cert.ReferenceIdeal.Read.val_main_cst Cert.KernelIdeal.HostSide.summed
  rfl

/-- The in-degrees are one function of the target indices in both programs. -/
theorem degree_eq (x4 : (⟨Cert.ReferenceIdeal.S1600000, .i32⟩ : BufTy).Contents (Elt Ideal)) :
    Cert.ReferenceIdeal.Read.val_main_v13 (F := Ideal) x4 = Cert.KernelIdeal.HostSide.degree (F := Ideal) x4 := by
  unfold Cert.ReferenceIdeal.Read.val_main_v13 Cert.ReferenceIdeal.Read.val_main_v12 Cert.ReferenceIdeal.Read.val_main_v11
    Cert.ReferenceIdeal.Read.val_main_v10 Cert.ReferenceIdeal.Read.val_main_cst_1 Cert.ReferenceIdeal.Read.val_main_cst_2
    Cert.KernelIdeal.HostSide.degree
  rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result array at the layer's function of the
    arguments: the kernel's by its blocks covering the array, the reference's by its operations read entry by entry. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v30_eq, Cert.ReferenceIdeal.RefValue.result_eq, summed_eq, degree_eq, a0, a1, a2, a3, a4]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
